-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S1x64 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S1x128 .f32) (main_arg3 : FVec F S128x64 .f32) (main_arg4 : FVec F S64 .f32) (main_arg5 : FVec F S1x64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 181
  | .vmem => 14
  | .smem => 0
  | _ => 0

abbrev hbmTy0_0 (i : Nat) : BufTy := match i % 128 with
  | 0 => ⟨S100000x128, .f32⟩
  | 1 => ⟨S2x1600000, .i32⟩
  | 2 => ⟨S1x128, .f32⟩
  | 3 => ⟨S128x64, .f32⟩
  | 4 => ⟨S64, .f32⟩
  | 5 => ⟨S1x64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .f32⟩
  | 50 => ⟨S1700000, .f32⟩
  | 51 => ⟨S_, .f32⟩
  | 52 => ⟨S100000, .f32⟩
  | 53 => ⟨S1700000x1, .i32⟩
  | 54 => ⟨S100000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x128, .f32⟩
  | 73 => ⟨S1700000x128, .f32⟩
  | 74 => ⟨S1700000x128, .f32⟩
  | 75 => ⟨S1700000x128, .f32⟩
  | 76 => ⟨S1700000x1, .f32⟩
  | 77 => ⟨S1700000x128, .f32⟩
  | 78 => ⟨S1700000x128, .f32⟩
  | 79 => ⟨S1700000x128, .f32⟩
  | 80 => ⟨S_, .f32⟩
  | 81 => ⟨S100000x128, .f32⟩
  | 82 => ⟨S1700000x1, .i32⟩
  | 83 => ⟨S100000x128, .f32⟩
  | 84 => ⟨S100000x128, .f32⟩
  | 85 => ⟨S100000x1, .f32⟩
  | 86 => ⟨S100000x128, .f32⟩
  | 87 => ⟨S100000x128, .f32⟩
  | 88 => ⟨S100000x128, .f32⟩
  | 89 => ⟨S100000x64, .f32⟩
  | 90 => ⟨S1700000x1, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x128, .f32⟩

abbrev hbmTy0_1 (i : Nat) : BufTy := match i % 128 with
  | 0 => ⟨S1700000x1, .i32⟩
  | 1 => ⟨S1700000x64, .f32⟩
  | 2 => ⟨S1700000x64, .f32⟩
  | 3 => ⟨S1700000x64, .f32⟩
  | 4 => ⟨S1700000x64, .f32⟩
  | 5 => ⟨S1700000x1, .f32⟩
  | 6 => ⟨S1700000x64, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S100000x64, .f32⟩
  | 14 => ⟨S100000x1, .f32⟩
  | 15 => ⟨S100000x64, .f32⟩
  | 16 => ⟨S100000x64, .f32⟩
  | 17 => ⟨S100000x64, .f32⟩
  | 18 => ⟨S100000x40, .f32⟩
  | 19 => ⟨S1700000x1, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000x40, .f32⟩
  | 29 => ⟨S1700000x40, .f32⟩
  | 30 => ⟨S1700000x40, .f32⟩
  | 31 => ⟨S_, .f32⟩
  | 32 => ⟨S100000x40, .f32⟩
  | 33 => ⟨S1700000x1, .i32⟩
  | 34 => ⟨S100000x40, .f32⟩
  | 35 => ⟨S1x40, .f32⟩
  | 36 => ⟨S100000x40, .f32⟩
  | 37 => ⟨S100000x40, .f32⟩
  | 38 => ⟨S_, .f32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x40, .f32⟩
  | 45 => ⟨S100000x40, .f32⟩
  | 46 => ⟨S100000x40, .f32⟩
  | 47 => ⟨S_, .f32⟩
  | 48 => ⟨S100000, .f32⟩
  | 49 => ⟨S100000x1, .f32⟩
  | 50 => ⟨S100000x1, .f32⟩
  | 51 => ⟨S100000x40, .f32⟩
  | 52 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S64x40, .f32⟩
  | .local _ .vmem, ⟨12, _⟩ => ⟨S10000x40, .f32⟩
  | .local _ .vmem, ⟨13, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call1_cst : Ref sig .tc := ⟨.hbm, 109, rfl⟩
abbrev main_call1_v0 : Ref sig .tc := ⟨.hbm, 110, rfl⟩
abbrev main_v81 : Ref sig .tc := ⟨.hbm, 111, rfl⟩
abbrev main_c_16 : Ref sig .tc := ⟨.hbm, 112, rfl⟩
abbrev main_v82 : Ref sig .tc := ⟨.hbm, 113, rfl⟩
abbrev main_v83 : Ref sig .tc := ⟨.hbm, 114, rfl⟩
abbrev main_c_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_18 : Ref sig .tc := ⟨.hbm, 121, rfl⟩
abbrev main_v89 : Ref sig .tc := ⟨.hbm, 122, rfl⟩
abbrev main_v90 : Ref sig .tc := ⟨.hbm, 123, rfl⟩
abbrev main_c_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_21 : Ref sig .tc := ⟨.hbm, 148, rfl⟩
abbrev main_v113 : Ref sig .tc := ⟨.hbm, 149, rfl⟩
abbrev main_v114 : Ref sig .tc := ⟨.hbm, 150, rfl⟩
abbrev main_c_22 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_23 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_call2_cst : Ref sig .tc := ⟨.hbm, 166, rfl⟩
abbrev main_call2_v0 : Ref sig .tc := ⟨.hbm, 167, rfl⟩
abbrev main_call2_cst_0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_cst_1 : Ref sig .tc := ⟨.hbm, 175, rfl⟩
abbrev main_call2_v7 : Ref sig .tc := ⟨.hbm, 176, rfl⟩
abbrev main_call2_v8 : Ref sig .tc := ⟨.hbm, 177, rfl⟩
abbrev main_call2_v9 : Ref sig .tc := ⟨.hbm, 178, rfl⟩
abbrev main_call2_v10 : Ref sig .tc := ⟨.hbm, 179, rfl⟩
abbrev main_v128 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1x128_S1700000x128_0_1 : S1x128.BroadcastsInDim S1700000x128 (![0, 1] : Fin 2 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1700000x64_0_1 : S1x64.BroadcastsInDim S1700000x64 (![0, 1] : Fin 2 → Fin S1700000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v81) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v110) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v111) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S100000x64 : Shape := ⟨2, ![100000, 64]⟩
abbrev S1700000x64 : Shape := ⟨2, ![1700000, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S1x128, .f32⟩
  | 3 => ⟨S128x64, .f32⟩
  | 4 => ⟨S64, .f32⟩
  | 5 => ⟨S1x64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x128, .f32⟩
  | 68 => ⟨S1700000x128, .f32⟩
  | 69 => ⟨S1700000x128, .f32⟩
  | 70 => ⟨S1700000x1, .f32⟩
  | 71 => ⟨S1700000x128, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S100000x128, .f32⟩
  | 85 => ⟨S100000x1, .f32⟩
  | 86 => ⟨S100000x128, .f32⟩
  | 87 => ⟨S100000x128, .f32⟩
  | 88 => ⟨S100000x128, .f32⟩
  | 89 => ⟨S100000x128, .f32⟩
  | 90 => ⟨S100000x64, .f32⟩
  | 91 => ⟨S1700000x1, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x64, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x128, .f32⟩

abbrev hbmTy0_1 (i : Nat) : BufTy := match i % 128 with
  | 0 => ⟨S1700000, .i32⟩
  | 1 => ⟨S1700000x1, .i32⟩
  | 2 => ⟨S1700000x64, .f32⟩
  | 3 => ⟨S1700000x64, .f32⟩
  | 4 => ⟨S1700000x64, .f32⟩
  | 5 => ⟨S1700000x64, .f32⟩
  | 6 => ⟨S1700000x1, .f32⟩
  | 7 => ⟨S1700000x64, .f32⟩
  | 8 => ⟨S1700000x64, .f32⟩
  | 9 => ⟨S1700000x64, .f32⟩
  | 10 => ⟨S_, .f32⟩
  | 11 => ⟨S100000x64, .f32⟩
  | 12 => ⟨S1700000x1, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S100000x64, .f32⟩
  | 21 => ⟨S100000x1, .f32⟩
  | 22 => ⟨S100000x64, .f32⟩
  | 23 => ⟨S100000x64, .f32⟩
  | 24 => ⟨S100000x64, .f32⟩
  | 25 => ⟨S100000x64, .f32⟩
  | 26 => ⟨S100000x40, .f32⟩
  | 27 => ⟨S1700000x1, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000x40, .f32⟩
  | 37 => ⟨S1700000x40, .f32⟩
  | 38 => ⟨S1700000x40, .f32⟩
  | 39 => ⟨S_, .f32⟩
  | 40 => ⟨S100000x40, .f32⟩
  | 41 => ⟨S1700000x1, .i32⟩
  | 42 => ⟨S100000x40, .f32⟩
  | 43 => ⟨S1x40, .f32⟩
  | 44 => ⟨S100000x40, .f32⟩
  | 45 => ⟨S100000x40, .f32⟩
  | 46 => ⟨S_, .f32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x40, .f32⟩
  | 53 => ⟨S100000x40, .f32⟩
  | 54 => ⟨S100000x40, .f32⟩
  | 55 => ⟨S_, .f32⟩
  | 56 => ⟨S100000, .f32⟩
  | 57 => ⟨S100000x1, .f32⟩
  | 58 => ⟨S100000x1, .f32⟩
  | 59 => ⟨S100000x40, .f32⟩
  | 60 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call1_cst : Ref sig .tc := ⟨.hbm, 110, rfl⟩
abbrev main_call1_v0 : Ref sig .tc := ⟨.hbm, 111, rfl⟩
abbrev main_v82 : Ref sig .tc := ⟨.hbm, 112, rfl⟩
abbrev main_c_16 : Ref sig .tc := ⟨.hbm, 113, rfl⟩
abbrev main_v83 : Ref sig .tc := ⟨.hbm, 114, rfl⟩
abbrev main_v84 : Ref sig .tc := ⟨.hbm, 115, rfl⟩
abbrev main_c_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_18 : Ref sig .tc := ⟨.hbm, 122, rfl⟩
abbrev main_v90 : Ref sig .tc := ⟨.hbm, 123, rfl⟩
abbrev main_v91 : Ref sig .tc := ⟨.hbm, 124, rfl⟩
abbrev main_c_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_21 : Ref sig .tc := ⟨.hbm, 142, rfl⟩
abbrev main_v107 : Ref sig .tc := ⟨.hbm, 143, rfl⟩
abbrev main_cst_22 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_23 : Ref sig .tc := ⟨.hbm, 156, rfl⟩
abbrev main_v119 : Ref sig .tc := ⟨.hbm, 157, rfl⟩
abbrev main_v120 : Ref sig .tc := ⟨.hbm, 158, rfl⟩
abbrev main_c_24 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_25 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_call2_cst : Ref sig .tc := ⟨.hbm, 174, rfl⟩
abbrev main_call2_v0 : Ref sig .tc := ⟨.hbm, 175, rfl⟩
abbrev main_call2_cst_0 : Ref sig .tc := ⟨.hbm, 176, rfl⟩
abbrev main_call2_v1 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_cst_1 : Ref sig .tc := ⟨.hbm, 183, rfl⟩
abbrev main_call2_v7 : Ref sig .tc := ⟨.hbm, 184, rfl⟩
abbrev main_call2_v8 : Ref sig .tc := ⟨.hbm, 185, rfl⟩
abbrev main_call2_v9 : Ref sig .tc := ⟨.hbm, 186, rfl⟩
abbrev main_call2_v10 : Ref sig .tc := ⟨.hbm, 187, rfl⟩
abbrev main_v134 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1x128_S1700000x128_0_1 : S1x128.BroadcastsInDim S1700000x128 (![0, 1] : Fin 2 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1700000x64_0_1 : S1x64.BroadcastsInDim S1700000x64 (![0, 1] : Fin 2 → Fin S1700000x64.rank)
  bcast_S100000x1_S100000x64_0_1 : S100000x1.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its RESULT named. Its @main is ten segments: three stretches of host
  operations, the first masked product as a pipelined region, three more stretches, the second masked
  product, and two last stretches (the bias add and the log-softmax). The buffer contents at each segment
  boundary are a fold through those segments from the launch memory; the last boundary's contents are
  `W10`. Every weakly fair execution terminates with every unscoped buffer holding its `W10` contents, so in
  particular the result buffer holds `W10` at the result, and each argument array is as launched.
-/
import proofs.«104577_j24524263260253_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of @main terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v128) = W10 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v128 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.LibAfterAppend.lean ====
/-
  A fold of host operations over a concatenated list is the fold over the second list from the result of the
  fold over the first. It lets a long straight line of operations be read in stretches: the buffers after a
  prefix are named once, and what follows is read over them as atoms.
-/
import Idealize.ShloMosaic.Lib.StableHlo.Run

namespace Idealize.ShloMosaic.StableHlo

open Idealize.ShloMosaic

variable {τ : Topo} {sig : RefSig} {Val : EltTy → Type}

/-- The buffer contents after `l₁ ++ l₂` are those after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The same at a split point of one list: the first `n` operations, then the rest. -/
theorem after_take_drop (n : Nat) (l : List (HloOp τ sig Val)) (V : Valuation τ sig Val) :
    after l V = after (l.drop n) (after (l.take n) V) := by
  rw [← after_append, List.take_append_drop]

end Idealize.ShloMosaic.StableHlo
-- ==== Proof.StagesPre.lean ====
/-
  The idealized kernel's buffers after the first seven host operations: the two rows of the edge list sliced out
  and flattened, the node numbers 0 … 99999, and each row with the node numbers appended — row and col, the two
  edge lists with the self-loops. Every later operation reads row and col as they stand, so they are named here
  once, as the reference's stages of the edge list, and the rest of @main is read over them.
-/
import proofs.«104577_j24524263260253_1_alg».proof.Proof.Gen.KernelIdeal.Frame
import proofs.«104577_j24524263260253_1_alg».proof.Proof.RefRead
import proofs.«104577_j24524263260253_1_alg».proof.Proof.LibAfterAppend

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The buffer contents after the first seven host operations. -/
def Wpre : Valuation τ sig (Elt Ideal) := after ((hostOps0 (F := Ideal)).take 7) (W0 m ρ c)

/-- The first stretch is those seven operations, then the rest of it. -/
theorem W1_split : W1 m ρ c = after ((hostOps0 (F := Ideal)).drop 7) (Wpre m ρ c) := after_take_drop 7 _ _

/-- row: the edges' source nodes with the node numbers appended. -/
theorem Wpre_v5 : Wpre m ρ c (Proc.devRef .tc main_v5) = Cert.ReferenceIdeal.Read.val_main_v5 (F := Ideal) (m ((c : Thread nD τ).loc main_arg1)) := by
  unfold Wpre
  simp only [hostOps0, List.take_succ_cons, List.take_zero]
  after_results_simp
  rfl

/-- col: the edges' target nodes with the node numbers appended. -/
theorem Wpre_v6 : Wpre m ρ c (Proc.devRef .tc main_v6) = Cert.ReferenceIdeal.Read.val_main_v6 (F := Ideal) (m ((c : Thread nD τ).loc main_arg1)) := by
  unfold Wpre
  simp only [hostOps0, List.take_succ_cons, List.take_zero]
  after_results_simp
  rfl

theorem Wpre_arg0 : Wpre m ρ c (Proc.devRef .tc main_arg0) = (m ((c : Thread nD τ).loc main_arg0)) := by
  unfold Wpre
  simp only [hostOps0, List.take_succ_cons, List.take_zero]
  after_results_simp <;> rfl

theorem Wpre_arg1 : Wpre m ρ c (Proc.devRef .tc main_arg1) = (m ((c : Thread nD τ).loc main_arg1)) := by
  unfold Wpre
  simp only [hostOps0, List.take_succ_cons, List.take_zero]
  after_results_simp <;> rfl

theorem Wpre_arg2 : Wpre m ρ c (Proc.devRef .tc main_arg2) = (m ((c : Thread nD τ).loc main_arg2)) := by
  unfold Wpre
  simp only [hostOps0, List.take_succ_cons, List.take_zero]
  after_results_simp <;> rfl

theorem Wpre_arg3 : Wpre m ρ c (Proc.devRef .tc main_arg3) = (m ((c : Thread nD τ).loc main_arg3)) := by
  unfold Wpre
  simp only [hostOps0, List.take_succ_cons, List.take_zero]
  after_results_simp <;> rfl

theorem Wpre_arg4 : Wpre m ρ c (Proc.devRef .tc main_arg4) = (m ((c : Thread nD τ).loc main_arg4)) := by
  unfold Wpre
  simp only [hostOps0, List.take_succ_cons, List.take_zero]
  after_results_simp <;> rfl

theorem Wpre_arg5 : Wpre m ρ c (Proc.devRef .tc main_arg5) = (m ((c : Thread nD τ).loc main_arg5)) := by
  unfold Wpre
  simp only [hostOps0, List.take_succ_cons, List.take_zero]
  after_results_simp <;> rfl

theorem Wpre_arg6 : Wpre m ρ c (Proc.devRef .tc main_arg6) = (m ((c : Thread nD τ).loc main_arg6)) := by
  unfold Wpre
  simp only [hostOps0, List.take_succ_cons, List.take_zero]
  after_results_simp <;> rfl

theorem Wpre_arg7 : Wpre m ρ c (Proc.devRef .tc main_arg7) = (m ((c : Thread nD τ).loc main_arg7)) := by
  unfold Wpre
  simp only [hostOps0, List.take_succ_cons, List.take_zero]
  after_results_simp <;> rfl

end Cert.KernelIdeal.Stages

end
-- ==== Proof.MaskedProduct0.lean ====
/-
  The first masked product, as one whole array. The region's grid has ten points; point `t` is handed rows
  `10000 t … 10000 t + 9999` of the node features `x` and of the mask `s` (both [100000, 128]) and the whole
  weight matrix `w` ([128, 64]), and writes back rows `10000 t … 10000 t + 9999` of the output. Its body
  multiplies the two row blocks entry by entry and multiplies the product into `w` from a zero accumulator;
  the two roundings to the short float format on the way in are the identity on extended reals. So entry
  `(r, c)` of the block written at `t` is `∑ k, (x (10000 t + r, k) · s (10000 t + r, k)) · w (k, c)`, which is
  entry `(10000 t + r, c)` of `maskedProduct x s w`; the ten row blocks tile the output, so the output array
  after the region IS `maskedProduct x s w`. Everything is stated at an arbitrary valuation `V` of the
  buffers at the region's entry.
-/
import proofs.«104577_j24524263260253_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MaskedProduct0

open Cert.KernelIdeal Cert.KernelIdeal.Gen
open Idealize.ShloMosaic Idealize.ShloMosaic.TcCoe Idealize.SL.Sem
open Idealize.ShloMosaic.Pipeline (Dat)

/-- Row `i 0` of a [100000, 128] array at column `k`. -/
abbrev rowAt (i : S100000x64.Idx) (k : Fin 128) : S100000x128.Idx := fun a => match a with
  | ⟨0, _⟩ => ⟨(i 0).val, (i 0).isLt⟩
  | ⟨1, _⟩ => ⟨k.val, k.isLt⟩
/-- Row `k` of the [128, 64] weights at column `i 1`. -/
abbrev colAt (i : S100000x64.Idx) (k : Fin 128) : S128x64.Idx := fun a => match a with
  | ⟨0, _⟩ => ⟨k.val, k.isLt⟩
  | ⟨1, _⟩ => ⟨(i 1).val, (i 1).isLt⟩

/-- The masked product: each row of `x` scaled entry by entry by the same row of `s`, then multiplied into `w`. -/
def maskedProduct (x s : S100000x128.Idx → EReal) (w : S128x64.Idx → EReal) : S100000x64.Idx → EReal :=
  fun i => ∑ k : Fin 128, (x (rowAt i k) * s (rowAt i k)) * w (colAt i k)

/-- The same two index maps inside one row block. -/
abbrev blockRowAt (j : S10000x64.Idx) (k : Fin 128) : S10000x128.Idx := fun a => match a with
  | ⟨0, _⟩ => ⟨(j 0).val, (j 0).isLt⟩
  | ⟨1, _⟩ => ⟨k.val, k.isLt⟩
abbrev blockColAt (j : S10000x64.Idx) (k : Fin 128) : S128x64.Idx := fun a => match a with
  | ⟨0, _⟩ => ⟨k.val, k.isLt⟩
  | ⟨1, _⟩ => ⟨(j 1).val, (j 1).isLt⟩

local notation "D" => dot_S10000x128_S128x64_S10000x64_1_0_0_1_n_n

theorem lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at entry `j` of its block: the sum over the 128 columns of the product of the two
    loaded row blocks at `(j 0, k)` times the loaded weights at `(k, j 1)`. -/
theorem payload_apply (x0 x1 : Vec Ideal S10000x128 .f32) (x2 : Vec Ideal S128x64 .f32) (j : S10000x64.Idx) :
    k0_pay1 (F := Ideal) x0 x1 x2 j = ∑ k : Fin 128, (x0 (blockRowAt j k) * x1 (blockRowAt j k)) * x2 (blockColAt j k) := by
  unfold k0_pay1
  rw [shapeCast_self]
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blockRowAt j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = blockColAt j k := funext fun a => Fin.ext (by
    match a with
    | ⟨0, _⟩ => exact (rhs_0 _ _).trans hk
    | ⟨1, _⟩ => exact rhs_1 _ _)
  rw [el, er]
  rfl

theorem hz : (![0, 0] : Fin 2 → Nat) = fun _ => 0 := funext fun a => by fin_cases a <;> rfl

/-- The printed index maps over the grid: the two row-blocked inputs and the output are at block row `t`, the
    weights at block (0, 0). -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of the masked product of the arrays the region finds. -/
theorem flushed_eq (c : Dev nD) (t : Fin cfg0.N) :
    (dat0 (F := Ideal) V c).flushed 3 t = ((cfg0.win 3).blk t).view.read (Elt Ideal) (maskedProduct (V c main_arg0) (V c main_v63) (V c main_arg3)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz]
  obtain ⟨e0, e1, e2, e3, e4, e5, e6, e7⟩ := index_facts t
  funext j
  show k0_pay1 (F := Ideal) (iblk0 V c 0 t) (iblk0 V c 1 t) (iblk0 V c 2 t) j = maskedProduct (V c main_arg0) (V c main_v63) (V c main_arg3) (((cfg0.win 3).blk t).view.emb j)
  refine (payload_apply _ _ _ j).trans ?_
  unfold maskedProduct
  refine Finset.sum_congr rfl fun k _ => ?_
  have h0 : ((cfg0.win 0).blk t).view.emb (blockRowAt j k) = rowAt (((cfg0.win 3).blk t).view.emb j) k := by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have h1 : ((cfg0.win 1).blk t).view.emb (blockRowAt j k) = rowAt (((cfg0.win 3).blk t).view.emb j) k := by
    funext a; apply Fin.ext
    match a with
    | ⟨0, _⟩ => show win0_1.index t (0 : Fin 2) * 10000 + 1 * (j 0).val = win0_3.index t (0 : Fin 2) * 10000 + 1 * (j 0).val; omega
    | ⟨1, _⟩ => show win0_1.index t (1 : Fin 2) * 128 + 1 * k.val = k.val; omega
  have h2 : ((cfg0.win 2).blk t).view.emb (blockColAt j k) = colAt (((cfg0.win 3).blk t).view.emb j) k := by
    funext a; apply Fin.ext
    match a with
    | ⟨0, _⟩ => show win0_2.index t (0 : Fin 2) * 128 + 1 * k.val = k.val; omega
    | ⟨1, _⟩ => show win0_2.index t (1 : Fin 2) * 64 + 1 * (j 1).val = win0_3.index t (1 : Fin 2) * 64 + 1 * (j 1).val; omega
  have r0 : (iblk0 V c 0 t : Vec Ideal S10000x128 .f32) (blockRowAt j k) = (V c main_arg0 : S100000x128.Idx → EReal) (rowAt (((cfg0.win 3).blk t).view.emb j) k) := by
    show (V c main_arg0 : S100000x128.Idx → EReal) (((cfg0.win 0).blk t).view.emb (blockRowAt j k)) = _
    rw [h0]
  have r1 : (iblk0 V c 1 t : Vec Ideal S10000x128 .f32) (blockRowAt j k) = (V c main_v63 : S100000x128.Idx → EReal) (rowAt (((cfg0.win 3).blk t).view.emb j) k) := by
    show (V c main_v63 : S100000x128.Idx → EReal) (((cfg0.win 1).blk t).view.emb (blockRowAt j k)) = _
    rw [h1]
  have r2 : (iblk0 V c 2 t : Vec Ideal S128x64 .f32) (blockColAt j k) = (V c main_arg3 : S128x64.Idx → EReal) (colAt (((cfg0.win 3).blk t).view.emb j) k) := by
    show (V c main_arg3 : S128x64.Idx → EReal) (((cfg0.win 2).blk t).view.emb (blockColAt j k)) = _
    rw [h2]
  rw [r0, r1, r2]

/-- An index of the output is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v64).slice (win0_3.rect t)).set ↔ _
  rw [View.set_slice_whole, Rect.mem_set_unit]
  exact Iff.rfl

/-- The ten row blocks tile the output: row `r` is in the block of point `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5, e6, e7⟩ := index_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the region is the masked product of the arrays the region finds. -/
theorem array_eq (c : Dev nD) :
    (dat0 (F := Ideal) V c).arrAt 3 cfg0.N = maskedProduct (V c main_arg0) (V c main_v63) (V c main_arg3) :=
  (dat0 (F := Ideal) V c).arrAt_eq_of_cover 3 _ (fun t _ => flushed_eq V c t) cover

end Cert.KernelIdeal.MaskedProduct0

end
-- ==== Proof.StagesA.lean ====
/-
  The idealized kernel's buffers at its segment boundaries, as functions of the launch arguments. The host
  operations of the kernel's @main are, operation for operation, those of the reference: the edge lists with
  the self-loops appended (row, col), the symmetric normalisation norm = deg^(-1/2)[row] · deg^(-1/2)[col],
  the out-degree, and per layer the mask exp(-(∑ over the edges leaving a node of norm · ((x[col] - x[row]) / σ)²) / deg),
  the normalised aggregation of the transformed features over the edges entering a node plus the bias, the
  rectifier between the layers and the log-softmax at the end. The reference's stages are named one by one
  (`val_main_vN`, functions of the argument arrays), so each live buffer of the kernel at a boundary is stated
  as the reference stage it equals: the same composed operations, read off the fold through the stretch.
  Only two buffers need an argument: the outputs of the two regions, which are the masked products where the
  reference has `dot_general (x · mask) W`; entry by entry both are `∑ k, (x (r, k) · mask (r, k)) · W (k, c)`.
  The out-degree the kernel computes once is the one the reference computes again in each layer.

  This module: the first region's entry (after the first three stretches of host operations) and its exit.
-/
import proofs.«104577_j24524263260253_1_alg».proof.Proof.StagesPre
import proofs.«104577_j24524263260253_1_alg».proof.Proof.MaskedProduct0

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

/-- The edges' normalisation: deg^(-1/2) at the source times deg^(-1/2) at the target (0 where the degree is 0). -/
theorem W3_v30 : W3 m ρ c (Proc.devRef .tc main_v30) = Cert.ReferenceIdeal.Read.val_main_v30 (F := Ideal) (m ((c : Thread nD τ).loc main_arg1)) := by
  dsimp only [W3, W2]
  rw [W1_split]
  simp only [hostOps0, hostOps0_1, hostOps0_2, List.drop_succ_cons, List.drop_zero]
  after_results_simp
  simp only [cast_eq, Wpre_v5 m ρ c, Wpre_v6 m ρ c]
  rfl

/-- The out-degree: ones added up over row. The reference computes it once per layer; this is its first. -/
theorem W3_v34 : W3 m ρ c (Proc.devRef .tc main_v34) = Cert.ReferenceIdeal.Read.val_main_v58 (F := Ideal) (m ((c : Thread nD τ).loc main_arg1)) := by
  dsimp only [W3, W2]
  rw [W1_split]
  simp only [hostOps0, hostOps0_1, hostOps0_2, List.drop_succ_cons, List.drop_zero]
  after_results_simp
  simp only [cast_eq, Wpre_v5 m ρ c, Wpre_v6 m ρ c]
  rfl

/-- The first layer's mask: exp of minus the normalised squared differences along the outgoing edges, over the degree. -/
theorem W3_v63 : W3 m ρ c (Proc.devRef .tc main_v63) = Cert.ReferenceIdeal.Read.val_main_v63 (F := Ideal) (m ((c : Thread nD τ).loc main_arg0)) (m ((c : Thread nD τ).loc main_arg1)) (m ((c : Thread nD τ).loc main_arg2)) := by
  dsimp only [W3, W2]
  rw [W1_split]
  simp only [hostOps0, hostOps0_1, hostOps0_2, List.drop_succ_cons, List.drop_zero]
  after_results_simp
  simp only [cast_eq, Wpre_v5 m ρ c, Wpre_v6 m ρ c]
  rfl

theorem W3_v5 : W3 m ρ c (Proc.devRef .tc main_v5) = Cert.ReferenceIdeal.Read.val_main_v5 (F := Ideal) (m ((c : Thread nD τ).loc main_arg1)) := by
  dsimp only [W3, W2]
  rw [W1_split]
  simp only [hostOps0, hostOps0_1, hostOps0_2, List.drop_succ_cons, List.drop_zero]
  after_results_simp
  exact Wpre_v5 m ρ c

theorem W3_v6 : W3 m ρ c (Proc.devRef .tc main_v6) = Cert.ReferenceIdeal.Read.val_main_v6 (F := Ideal) (m ((c : Thread nD τ).loc main_arg1)) := by
  dsimp only [W3, W2]
  rw [W1_split]
  simp only [hostOps0, hostOps0_1, hostOps0_2, List.drop_succ_cons, List.drop_zero]
  after_results_simp
  exact Wpre_v6 m ρ c

theorem W3_arg0 : W3 m ρ c (Proc.devRef .tc main_arg0) = (m ((c : Thread nD τ).loc main_arg0)) := by
  dsimp only [W3, W2]
  rw [W1_split]
  simp only [hostOps0, hostOps0_1, hostOps0_2, List.drop_succ_cons, List.drop_zero]
  after_results_simp
  exact Wpre_arg0 m ρ c

theorem W3_arg3 : W3 m ρ c (Proc.devRef .tc main_arg3) = (m ((c : Thread nD τ).loc main_arg3)) := by
  dsimp only [W3, W2]
  rw [W1_split]
  simp only [hostOps0, hostOps0_1, hostOps0_2, List.drop_succ_cons, List.drop_zero]
  after_results_simp
  exact Wpre_arg3 m ρ c

theorem W3_arg4 : W3 m ρ c (Proc.devRef .tc main_arg4) = (m ((c : Thread nD τ).loc main_arg4)) := by
  dsimp only [W3, W2]
  rw [W1_split]
  simp only [hostOps0, hostOps0_1, hostOps0_2, List.drop_succ_cons, List.drop_zero]
  after_results_simp
  exact Wpre_arg4 m ρ c

theorem W3_arg5 : W3 m ρ c (Proc.devRef .tc main_arg5) = (m ((c : Thread nD τ).loc main_arg5)) := by
  dsimp only [W3, W2]
  rw [W1_split]
  simp only [hostOps0, hostOps0_1, hostOps0_2, List.drop_succ_cons, List.drop_zero]
  after_results_simp
  exact Wpre_arg5 m ρ c

theorem W3_arg6 : W3 m ρ c (Proc.devRef .tc main_arg6) = (m ((c : Thread nD τ).loc main_arg6)) := by
  dsimp only [W3, W2]
  rw [W1_split]
  simp only [hostOps0, hostOps0_1, hostOps0_2, List.drop_succ_cons, List.drop_zero]
  after_results_simp
  exact Wpre_arg6 m ρ c

theorem W3_arg7 : W3 m ρ c (Proc.devRef .tc main_arg7) = (m ((c : Thread nD τ).loc main_arg7)) := by
  dsimp only [W3, W2]
  rw [W1_split]
  simp only [hostOps0, hostOps0_1, hostOps0_2, List.drop_succ_cons, List.drop_zero]
  after_results_simp
  exact Wpre_arg7 m ρ c

/-! ## At the first region's exit -/

/-- The first region's output is the reference's `dot_general` of the masked features and the weights. -/
theorem W4_v64 : W4 m ρ c (Proc.devRef .tc main_v64) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) := by
  refine (W4_arr m ρ c 3).trans ?_
  refine (Cert.KernelIdeal.MaskedProduct0.array_eq (V3 m ρ) c).trans ?_
  have a0 : V3 m ρ c main_arg0 = (m ((c : Thread nD τ).loc main_arg0)) := W3_arg0 m ρ c
  have a1 : V3 m ρ c main_v63 = Cert.ReferenceIdeal.Read.val_main_v63 (F := Ideal) (m ((c : Thread nD τ).loc main_arg0)) (m ((c : Thread nD τ).loc main_arg1)) (m ((c : Thread nD τ).loc main_arg2)) := W3_v63 m ρ c
  have a3 : V3 m ρ c main_arg3 = (m ((c : Thread nD τ).loc main_arg3)) := W3_arg3 m ρ c
  rw [a0, a1, a3]
  funext i
  refine Eq.trans ?_ (Cert.ReferenceIdeal.Read.val_main_v65_apply (m ((c : Thread nD τ).loc main_arg0)) (m ((c : Thread nD τ).loc main_arg1)) (m ((c : Thread nD τ).loc main_arg2)) (m ((c : Thread nD τ).loc main_arg3)) i).symm
  unfold Cert.KernelIdeal.MaskedProduct0.maskedProduct
  refine Finset.sum_congr rfl fun k _ => ?_
  have hl : Cert.KernelIdeal.MaskedProduct0.rowAt i k = Cert.ReferenceIdeal.Read.lidx_main_v65 i k := funext fun a => Fin.ext (by match a with | ⟨0, _⟩ => rfl | ⟨1, _⟩ => rfl)
  have hr : Cert.KernelIdeal.MaskedProduct0.colAt i k = Cert.ReferenceIdeal.Read.ridx_main_v65 i k := funext fun a => Fin.ext (by match a with | ⟨0, _⟩ => rfl | ⟨1, _⟩ => rfl)
  rw [hl, hr]
  rfl

theorem W4_v30 : W4 m ρ c (Proc.devRef .tc main_v30) = Cert.ReferenceIdeal.Read.val_main_v30 (F := Ideal) (m ((c : Thread nD τ).loc main_arg1)) :=
  (W4_of_ne m ρ c main_v30 (by decide)).trans (W3_v30 m ρ c)

theorem W4_v5 : W4 m ρ c (Proc.devRef .tc main_v5) = Cert.ReferenceIdeal.Read.val_main_v5 (F := Ideal) (m ((c : Thread nD τ).loc main_arg1)) :=
  (W4_of_ne m ρ c main_v5 (by decide)).trans (W3_v5 m ρ c)

theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)

theorem W4_v34 : W4 m ρ c (Proc.devRef .tc main_v34) = Cert.ReferenceIdeal.Read.val_main_v58 (F := Ideal) (m ((c : Thread nD τ).loc main_arg1)) :=
  (W4_of_ne m ρ c main_v34 (by decide)).trans (W3_v34 m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

end Cert.KernelIdeal.Stages

end
-- ==== Proof.StagesB.lean ====
/-
  The idealized kernel's buffers at the second region's entry (after the three stretches of host operations that
  follow the first region: the first layer's aggregation and bias, the rectifier, the second layer's mask), as the
  reference's stages of the launch arguments. Row, col, the normalisation and the arguments pass through.
-/
import proofs.«104577_j24524263260253_1_alg».proof.Proof.StagesA

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the second region's entry -/

/-- The out-degree the kernel computed once is the degree the reference computes again for its second layer: the same
    scatter-add of ones over row. Spelt the second way, for the second layer's mask. -/
theorem W4_v34' : W4 m ρ c (Proc.devRef .tc main_v34) = Cert.ReferenceIdeal.Read.val_main_v110 (F := Ideal) (m ((c : Thread nD τ).loc main_arg1)) :=
  W4_v34 m ρ c

/-- The second layer's input: the first layer's aggregation of the transformed features over the incoming edges, plus
    its bias, through the rectifier. -/
theorem W7_v81 : W7 m ρ c (Proc.devRef .tc main_v81) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W7, W6, W5]
  simp only [hostOps1, hostOps1_1, hostOps1_2]
  after_results_simp
  simp only [cast_eq, W4_v64 m ρ c, W4_v30 m ρ c, W4_v5 m ρ c, W4_v6 m ρ c, W4_v34 m ρ c, W4_arg4 m ρ c, W4_arg5 m ρ c, W4_arg6 m ρ c, W4_arg7 m ρ c]
  rfl

/-- The second layer's mask: exp of minus the normalised squared differences along the outgoing edges, over the degree. -/
theorem W7_v110 : W7 m ρ c (Proc.devRef .tc main_v110) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W7, W6, W5]
  simp only [hostOps1, hostOps1_1, hostOps1_2]
  after_results_simp
  simp only [cast_eq, W4_v64 m ρ c, W4_v30 m ρ c, W4_v5 m ρ c, W4_v6 m ρ c, W4_arg4 m ρ c, W4_arg5 m ρ c, W4_arg6 m ρ c, W4_arg7 m ρ c, W4_v34' m ρ c]
  rfl

theorem W7_v30 : W7 m ρ c (Proc.devRef .tc main_v30) = Cert.ReferenceIdeal.Read.val_main_v30 (F := Ideal) (m ((c : Thread nD τ).loc main_arg1)) := by
  dsimp only [W7, W6, W5]
  simp only [hostOps1, hostOps1_1, hostOps1_2]
  after_results_simp
  exact W4_v30 m ρ c

theorem W7_v5 : W7 m ρ c (Proc.devRef .tc main_v5) = Cert.ReferenceIdeal.Read.val_main_v5 (F := Ideal) (m ((c : Thread nD τ).loc main_arg1)) := by
  dsimp only [W7, W6, W5]
  simp only [hostOps1, hostOps1_1, hostOps1_2]
  after_results_simp
  exact W4_v5 m ρ c

theorem W7_v6 : W7 m ρ c (Proc.devRef .tc main_v6) = Cert.ReferenceIdeal.Read.val_main_v6 (F := Ideal) (m ((c : Thread nD τ).loc main_arg1)) := by
  dsimp only [W7, W6, W5]
  simp only [hostOps1, hostOps1_1, hostOps1_2]
  after_results_simp
  exact W4_v6 m ρ c

theorem W7_arg6 : W7 m ρ c (Proc.devRef .tc main_arg6) = (m ((c : Thread nD τ).loc main_arg6)) := by
  dsimp only [W7, W6, W5]
  simp only [hostOps1, hostOps1_1, hostOps1_2]
  after_results_simp
  exact W4_arg6 m ρ c

theorem W7_arg7 : W7 m ρ c (Proc.devRef .tc main_arg7) = (m ((c : Thread nD τ).loc main_arg7)) := by
  dsimp only [W7, W6, W5]
  simp only [hostOps1, hostOps1_1, hostOps1_2]
  after_results_simp
  exact W4_arg7 m ρ c

end Cert.KernelIdeal.Stages

end
-- ==== Proof.MaskedProduct1.lean ====
/-
  The second masked product, as one whole array. The region's grid has ten points; point `t` is handed rows
  `10000 t … 10000 t + 9999` of the hidden features `x` and of the mask `s` (both [100000, 64]) and the whole
  weight matrix `w` ([64, 40]), and writes back rows `10000 t … 10000 t + 9999` of the output. Its body
  multiplies the two row blocks entry by entry and multiplies the product into `w` from a zero accumulator;
  the two roundings to the short float format on the way in are the identity on extended reals. So entry
  `(r, c)` of the block written at `t` is `∑ k, (x (10000 t + r, k) · s (10000 t + r, k)) · w (k, c)`, which is
  entry `(10000 t + r, c)` of `maskedProduct x s w`; the ten row blocks tile the output, so the output array
  after the region IS `maskedProduct x s w`. Everything is stated at an arbitrary valuation `V` of the
  buffers at the region's entry.
-/
import proofs.«104577_j24524263260253_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MaskedProduct1

open Cert.KernelIdeal Cert.KernelIdeal.Gen
open Idealize.ShloMosaic Idealize.ShloMosaic.TcCoe Idealize.SL.Sem
open Idealize.ShloMosaic.Pipeline (Dat)

/-- Row `i 0` of a [100000, 64] array at column `k`. -/
abbrev rowAt (i : S100000x40.Idx) (k : Fin 64) : S100000x64.Idx := fun a => match a with
  | ⟨0, _⟩ => ⟨(i 0).val, (i 0).isLt⟩
  | ⟨1, _⟩ => ⟨k.val, k.isLt⟩
/-- Row `k` of the [64, 40] weights at column `i 1`. -/
abbrev colAt (i : S100000x40.Idx) (k : Fin 64) : S64x40.Idx := fun a => match a with
  | ⟨0, _⟩ => ⟨k.val, k.isLt⟩
  | ⟨1, _⟩ => ⟨(i 1).val, (i 1).isLt⟩

/-- The masked product: each row of `x` scaled entry by entry by the same row of `s`, then multiplied into `w`. -/
def maskedProduct (x s : S100000x64.Idx → EReal) (w : S64x40.Idx → EReal) : S100000x40.Idx → EReal :=
  fun i => ∑ k : Fin 64, (x (rowAt i k) * s (rowAt i k)) * w (colAt i k)

/-- The masked product of equal arrays. -/
theorem maskedProduct_congr {x x' s s' : S100000x64.Idx → EReal} {w w' : S64x40.Idx → EReal}
    (hx : x = x') (hs : s = s') (hw : w = w') : maskedProduct x s w = maskedProduct x' s' w' := by
  rw [hx, hs, hw]

/-- The same two index maps inside one row block. -/
abbrev blockRowAt (j : S10000x40.Idx) (k : Fin 64) : S10000x64.Idx := fun a => match a with
  | ⟨0, _⟩ => ⟨(j 0).val, (j 0).isLt⟩
  | ⟨1, _⟩ => ⟨k.val, k.isLt⟩
abbrev blockColAt (j : S10000x40.Idx) (k : Fin 64) : S64x40.Idx := fun a => match a with
  | ⟨0, _⟩ => ⟨k.val, k.isLt⟩
  | ⟨1, _⟩ => ⟨(j 1).val, (j 1).isLt⟩

local notation "D" => dot_S10000x64_S64x40_S10000x40_1_0_0_1_n_n

theorem lhs_0 (j : S10000x40.Idx) (q : dot_S10000x64_S64x40_S10000x40_1_0_0_1_n_n.contr.Idx) :
    (dot_S10000x64_S64x40_S10000x40_1_0_0_1_n_n.lhsIdx j q 0).val = (j 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_1 (j : S10000x40.Idx) (q : dot_S10000x64_S64x40_S10000x40_1_0_0_1_n_n.contr.Idx) :
    (dot_S10000x64_S64x40_S10000x40_1_0_0_1_n_n.lhsIdx j q 1).val = (q ⟨0, by decide⟩).val :=
  dot_S10000x64_S64x40_S10000x40_1_0_0_1_n_n.lhsIdx_val_of_single rfl j q
theorem rhs_0 (j : S10000x40.Idx) (q : dot_S10000x64_S64x40_S10000x40_1_0_0_1_n_n.contr.Idx) :
    (dot_S10000x64_S64x40_S10000x40_1_0_0_1_n_n.rhsIdx j q 0).val = (q ⟨0, by decide⟩).val :=
  dot_S10000x64_S64x40_S10000x40_1_0_0_1_n_n.rhsIdx_val_of_single rfl j q
theorem rhs_1 (j : S10000x40.Idx) (q : dot_S10000x64_S64x40_S10000x40_1_0_0_1_n_n.contr.Idx) :
    (dot_S10000x64_S64x40_S10000x40_1_0_0_1_n_n.rhsIdx j q 1).val = (j 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The body's stored value at entry `j` of its block: the sum over the 64 columns of the product of the two
    loaded row blocks at `(j 0, k)` times the loaded weights at `(k, j 1)`. -/
theorem payload_apply (x0 x1 : Vec Ideal S10000x64 .f32) (x2 : Vec Ideal S64x40 .f32) (j : S10000x40.Idx) :
    k1_pay1 (F := Ideal) x0 x1 x2 j = ∑ k : Fin 64, (x0 (blockRowAt j k) * x1 (blockRowAt j k)) * x2 (blockColAt j k) := by
  unfold k1_pay1
  rw [shapeCast_self, shapeCast_self]
  refine (Ideal.matmul_constant_zero_apply dot_S10000x64_S64x40_S10000x40_1_0_0_1_n_n none _ _ j).trans ?_
  rw [← Equiv.sum_comp (ValueIdx.contrEquiv1 dot_S10000x64_S64x40_S10000x40_1_0_0_1_n_n 64 rfl rfl).symm]
  refine Finset.sum_congr rfl fun k _ => ?_
  have hk := ValueIdx.contrEquiv1_symm_val dot_S10000x64_S64x40_S10000x40_1_0_0_1_n_n 64 rfl rfl k
  have el : dot_S10000x64_S64x40_S10000x40_1_0_0_1_n_n.lhsIdx j ((ValueIdx.contrEquiv1 dot_S10000x64_S64x40_S10000x40_1_0_0_1_n_n 64 rfl rfl).symm k) = blockRowAt j k := funext fun a => Fin.ext (by
    match a with
    | ⟨0, _⟩ => exact lhs_0 _ _
    | ⟨1, _⟩ => exact (lhs_1 _ _).trans hk)
  have er : dot_S10000x64_S64x40_S10000x40_1_0_0_1_n_n.rhsIdx j ((ValueIdx.contrEquiv1 dot_S10000x64_S64x40_S10000x40_1_0_0_1_n_n 64 rfl rfl).symm k) = blockColAt j k := funext fun a => Fin.ext (by
    match a with
    | ⟨0, _⟩ => exact (rhs_0 _ _).trans hk
    | ⟨1, _⟩ => exact rhs_1 _ _)
  rw [el, er]
  rfl

theorem hz : (![0, 0] : Fin 2 → Nat) = fun _ => 0 := funext fun a => by fin_cases a <;> rfl

/-- The printed index maps over the grid: the two row-blocked inputs and the output are at block row `t`, the
    weights at block (0, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the masked product of the arrays the region finds. -/
theorem flushed_eq (c : Dev nD) (t : Fin cfg1.N) :
    (dat1 (F := Ideal) V c).flushed 3 t = ((cfg1.win 3).blk t).view.read (Elt Ideal) (maskedProduct (V c main_v81) (V c main_v110) (V c main_arg6)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x40) hz]
  obtain ⟨e0, e1, e2, e3, e4, e5, e6, e7⟩ := index_facts t
  funext j
  show k1_pay1 (F := Ideal) (iblk1 V c 0 t) (iblk1 V c 1 t) (iblk1 V c 2 t) j = maskedProduct (V c main_v81) (V c main_v110) (V c main_arg6) (((cfg1.win 3).blk t).view.emb j)
  refine (payload_apply _ _ _ j).trans ?_
  unfold maskedProduct
  refine Finset.sum_congr rfl fun k _ => ?_
  have h0 : ((cfg1.win 0).blk t).view.emb (blockRowAt j k) = rowAt (((cfg1.win 3).blk t).view.emb j) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have h1 : ((cfg1.win 1).blk t).view.emb (blockRowAt j k) = rowAt (((cfg1.win 3).blk t).view.emb j) k := by
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 64 + 1 * k.val = k.val; omega
  have h2 : ((cfg1.win 2).blk t).view.emb (blockColAt j k) = colAt (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 40 + 1 * (j 1).val = win1_3.index t (1 : Fin 2) * 40 + 1 * (j 1).val; omega
  have r0 : (iblk1 V c 0 t : Vec Ideal S10000x64 .f32) (blockRowAt j k) = (V c main_v81 : S100000x64.Idx → EReal) (rowAt (((cfg1.win 3).blk t).view.emb j) k) := by
    show (V c main_v81 : S100000x64.Idx → EReal) (((cfg1.win 0).blk t).view.emb (blockRowAt j k)) = _
    rw [h0]
  have r1 : (iblk1 V c 1 t : Vec Ideal S10000x64 .f32) (blockRowAt j k) = (V c main_v110 : S100000x64.Idx → EReal) (rowAt (((cfg1.win 3).blk t).view.emb j) k) := by
    show (V c main_v110 : S100000x64.Idx → EReal) (((cfg1.win 1).blk t).view.emb (blockRowAt j k)) = _
    rw [h1]
  have r2 : (iblk1 V c 2 t : Vec Ideal S64x40 .f32) (blockColAt j k) = (V c main_arg6 : S64x40.Idx → EReal) (colAt (((cfg1.win 3).blk t).view.emb j) k) := by
    show (V c main_arg6 : S64x40.Idx → EReal) (((cfg1.win 2).blk t).view.emb (blockColAt j k)) = _
    rw [h2]
  rw [r0, r1, r2]

/-- An index of the output is in point `t`'s block iff each coordinate is in the block's range on its axis. -/
theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v111).slice (win1_3.rect t)).set ↔ _
  rw [View.set_slice_whole, Rect.mem_set_unit]
  exact Iff.rfl

/-- The ten row blocks tile the output: row `r` is in the block of point `r / 10000`. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 10 := N_1
  let t : Fin cfg1.N := ⟨(i 0).val / 10000, by rw [hN]; omega⟩
  obtain ⟨e0, e1, e2, e3, e4, e5, e6, e7⟩ := index_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 40 ≤ (i 1).val ∧ (i 1).val < win1_3.index t (1 : Fin 2) * 40 + 40; omega

/-- The output array after the region is the masked product of the arrays the region finds. -/
theorem array_eq (c : Dev nD) :
    (dat1 (F := Ideal) V c).arrAt 3 cfg1.N = maskedProduct (V c main_v81) (V c main_v110) (V c main_arg6) :=
  (dat1 (F := Ideal) V c).arrAt_eq_of_cover 3 _ (fun t _ => flushed_eq V c t) cover

end Cert.KernelIdeal.MaskedProduct1

end
-- ==== Proof.StagesBx.lean ====
/-
  The idealized kernel's buffers at the second region's exit: its output, the second masked product, is the
  reference's second `dot_general`; row, col, the normalisation and the last bias pass through.
-/
import proofs.«104577_j24524263260253_1_alg».proof.Proof.StagesB
import proofs.«104577_j24524263260253_1_alg».proof.Proof.MaskedProduct1

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the second region's exit -/

/-- The second region's output is the reference's second `dot_general`. -/
theorem W8_v111 : W8 m ρ c (Proc.devRef .tc main_v111) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ?_
  refine (Cert.KernelIdeal.MaskedProduct1.array_eq (V7 m ρ) c).trans ?_
  refine (Cert.KernelIdeal.MaskedProduct1.maskedProduct_congr (W7_v81 m ρ c) (W7_v110 m ρ c) (W7_arg6 m ρ c)).trans ?_
  funext i
  refine Eq.trans ?_ (Cert.ReferenceIdeal.Read.val_main_v117_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i).symm
  unfold Cert.KernelIdeal.MaskedProduct1.maskedProduct
  refine Finset.sum_congr rfl fun k _ => ?_
  have hl : Cert.KernelIdeal.MaskedProduct1.rowAt i k = Cert.ReferenceIdeal.Read.lidx_main_v117 i k := funext fun a => Fin.ext (by match a with | ⟨0, _⟩ => rfl | ⟨1, _⟩ => rfl)
  have hr : Cert.KernelIdeal.MaskedProduct1.colAt i k = Cert.ReferenceIdeal.Read.ridx_main_v117 i k := funext fun a => Fin.ext (by match a with | ⟨0, _⟩ => rfl | ⟨1, _⟩ => rfl)
  rw [hl, hr, Cert.ReferenceIdeal.Read.val_main_v116_apply]
  generalize Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (Cert.ReferenceIdeal.Read.lidx_main_v117 i k) = a
  generalize Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Cert.ReferenceIdeal.Read.lidx_main_v117 i k) = b
  rfl

theorem W8_v30 : W8 m ρ c (Proc.devRef .tc main_v30) = Cert.ReferenceIdeal.Read.val_main_v30 (F := Ideal) (m ((c : Thread nD τ).loc main_arg1)) :=
  (W8_of_ne m ρ c main_v30 (by decide)).trans (W7_v30 m ρ c)

theorem W8_v5 : W8 m ρ c (Proc.devRef .tc main_v5) = Cert.ReferenceIdeal.Read.val_main_v5 (F := Ideal) (m ((c : Thread nD τ).loc main_arg1)) :=
  (W8_of_ne m ρ c main_v5 (by decide)).trans (W7_v5 m ρ c)

theorem W8_v6 : W8 m ρ c (Proc.devRef .tc main_v6) = Cert.ReferenceIdeal.Read.val_main_v6 (F := Ideal) (m ((c : Thread nD τ).loc main_arg1)) :=
  (W8_of_ne m ρ c main_v6 (by decide)).trans (W7_v6 m ρ c)

theorem W8_arg7 : W8 m ρ c (Proc.devRef .tc main_arg7) = (m ((c : Thread nD τ).loc main_arg7)) :=
  (W8_of_ne m ρ c main_arg7 (by decide)).trans (W7_arg7 m ρ c)

end Cert.KernelIdeal.Stages

end
-- ==== Proof.StagesC.lean ====
/-
  The idealized kernel's result at the return: after the second region the last two stretches of host operations
  aggregate the second layer's transformed features, add its bias and take the log-softmax — the reference's
  last stage of the launch arguments.
-/
import proofs.«104577_j24524263260253_1_alg».proof.Proof.StagesBx

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The kernel's result is the reference's last stage of the launch arguments. -/
theorem W10_v128 : W10 m ρ c (Proc.devRef .tc main_v128) = Cert.ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W10, W9]
  simp only [hostOps2, hostOps2_1]
  after_results_simp
  simp only [cast_eq, W8_v111 m ρ c, W8_v30 m ρ c, W8_v5 m ρ c, W8_v6 m ρ c, W8_arg7 m ρ c]
  rfl

end Cert.KernelIdeal.Stages

end
-- ==== Proof.RefRun.lean ====
/-
  The idealized reference's run. Its @main is a straight line of 181 host operations (the three functions jax
  outlined — the select of the normalisation, the rectifier, the log-softmax — stand in their calls' places), so
  every weakly fair execution terminates with each buffer at the fold of the operations' results over the launch
  contents. Read through that fold, the result buffer holds the last of the reference's stages — the log-softmax
  of the second layer's output — as a function of the eight argument arrays, and no operation writes an argument.
  The operation list is the program's own, in order.
-/
import proofs.«104577_j24524263260253_1_alg».proof.Proof.Gen.ReferenceIdeal
import proofs.«104577_j24524263260253_1_alg».proof.Proof.RefRead
import proofs.«104577_j24524263260253_1_alg».proof.Proof.LibAfterAppend
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 181 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v5 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v7 main_v22 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_arg0 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    nullary main_c_8 (constantI S_ 32 0#32),
    unary main_c_8 main_v38 (broadcastInDim S1700000 ![] bcast_S_S1700000 : (⟨S_, .i32⟩ : BufTy).Contents (Elt F) → (⟨S1700000, .i32⟩ : BufTy).Contents (Elt F)),
    binary main_v5 main_v38 main_v39 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v40 (broadcastInDim S1700000 ![] bcast_S_S1700000 : (⟨S_, .i32⟩ : BufTy).Contents (Elt F) → (⟨S1700000, .i32⟩ : BufTy).Contents (Elt F)),
    binary main_v5 main_v40 main_v41 (addi : (⟨S1700000, .i32⟩ : BufTy).Contents (Elt F) → (⟨S1700000, .i32⟩ : BufTy).Contents (Elt F) → (⟨S1700000, .i32⟩ : BufTy).Contents (Elt F)),
    ternary main_v39 main_v41 main_v5 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v42 main_v43 (broadcastInDim S1700000x1 ![0] bcast_S1700000_S1700000x1_0 : (⟨S1700000, .i32⟩ : BufTy).Contents (Elt F) → (⟨S1700000x1, .i32⟩ : BufTy).Contents (Elt F)),
    binary main_arg0 main_v43 main_v44 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    binary main_v37 main_v44 main_v45 (subf : (⟨S1700000x128, .f32⟩ : BufTy).Contents (Elt F) → (⟨S1700000x128, .f32⟩ : BufTy).Contents (Elt F) → (⟨S1700000x128, .f32⟩ : BufTy).Contents (Elt F)),
    unary main_arg2 main_v46 (broadcastInDim S1700000x128 ![0, 1] bcast_S1x128_S1700000x128_0_1 : (⟨S1x128, .f32⟩ : BufTy).Contents (Elt F) → (⟨S1700000x128, .f32⟩ : BufTy).Contents (Elt F)),
    binary main_v45 main_v46 main_v47 (Host.divf : (⟨S1700000x128, .f32⟩ : BufTy).Contents (Elt F) → (⟨S1700000x128, .f32⟩ : BufTy).Contents (Elt F) → (⟨S1700000x128, .f32⟩ : BufTy).Contents (Elt F)),
    unary main_v30 main_v48 (broadcastInDim S1700000x1 ![0] bcast_S1700000_S1700000x1_0 : (⟨S1700000, .f32⟩ : BufTy).Contents (Elt F) → (⟨S1700000x1, .f32⟩ : BufTy).Contents (Elt F)),
    unary main_v48 main_v49 (broadcastInDim S1700000x128 ![0, 1] bcast_S1700000x1_S1700000x128_0_1 : (⟨S1700000x1, .f32⟩ : BufTy).Contents (Elt F) → (⟨S1700000x128, .f32⟩ : BufTy).Contents (Elt F)),
    binary main_v49 main_v47 main_v50 (mulf : (⟨S1700000x128, .f32⟩ : BufTy).Contents (Elt F) → (⟨S1700000x128, .f32⟩ : BufTy).Contents (Elt F) → (⟨S1700000x128, .f32⟩ : BufTy).Contents (Elt F)),
    binary main_v50 main_v47 main_v51 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v52 (broadcastInDim S100000x128 ![] bcast_S_S100000x128 : (⟨S_, .f32⟩ : BufTy).Contents (Elt F) → (⟨S100000x128, .f32⟩ : BufTy).Contents (Elt F)),
    unary main_v5 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    nullary main_cst_11 (constant S_ .f32 0x3F800000#32),
    unary main_cst_11 main_v55 (broadcastInDim S1700000 ![] bcast_S_S1700000 : (⟨S_, .f32⟩ : BufTy).Contents (Elt F) → (⟨S1700000, .f32⟩ : BufTy).Contents (Elt F)),
    nullary main_cst_12 (constant S_ .f32 0x00000000#32),
    unary main_cst_12 main_v56 (broadcastInDim S100000 ![] bcast_S_S100000 : (⟨S_, .f32⟩ : BufTy).Contents (Elt F) → (⟨S100000, .f32⟩ : BufTy).Contents (Elt F)),
    unary main_v5 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v54 main_v59 (Host.negf : (⟨S100000x128, .f32⟩ : BufTy).Contents (Elt F) → (⟨S100000x128, .f32⟩ : BufTy).Contents (Elt F)),
    unary main_v58 main_v60 (broadcastInDim S100000x1 ![0] bcast_S100000_S100000x1_0 : (⟨S100000, .f32⟩ : BufTy).Contents (Elt F) → (⟨S100000x1, .f32⟩ : BufTy).Contents (Elt F)),
    unary main_v60 main_v61 (broadcastInDim S100000x128 ![0, 1] bcast_S100000x1_S100000x128_0_1 : (⟨S100000x1, .f32⟩ : BufTy).Contents (Elt F) → (⟨S100000x128, .f32⟩ : BufTy).Contents (Elt F)),
    binary main_v59 main_v61 main_v62 (Host.divf : (⟨S100000x128, .f32⟩ : BufTy).Contents (Elt F) → (⟨S100000x128, .f32⟩ : BufTy).Contents (Elt F) → (⟨S100000x128, .f32⟩ : BufTy).Contents (Elt F)),
    unary main_v62 main_v63 (Host.exp : (⟨S100000x128, .f32⟩ : BufTy).Contents (Elt F) → (⟨S100000x128, .f32⟩ : BufTy).Contents (Elt F)),
    binary main_arg0 main_v63 main_v64 (mulf : (⟨S100000x128, .f32⟩ : BufTy).Contents (Elt F) → (⟨S100000x128, .f32⟩ : BufTy).Contents (Elt F) → (⟨S100000x128, .f32⟩ : BufTy).Contents (Elt F)),
    binary main_v64 main_arg3 main_v65 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v30 main_v66 (broadcastInDim S1700000x1 ![0] bcast_S1700000_S1700000x1_0 : (⟨S1700000, .f32⟩ : BufTy).Contents (Elt F) → (⟨S1700000x1, .f32⟩ : BufTy).Contents (Elt F)),
    nullary main_c_13 (constantI S_ 32 0#32),
    unary main_c_13 main_v67 (broadcastInDim S1700000 ![] bcast_S_S1700000 : (⟨S_, .i32⟩ : BufTy).Contents (Elt F) → (⟨S1700000, .i32⟩ : BufTy).Contents (Elt F)),
    binary main_v5 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v69 (broadcastInDim S1700000 ![] bcast_S_S1700000 : (⟨S_, .i32⟩ : BufTy).Contents (Elt F) → (⟨S1700000, .i32⟩ : BufTy).Contents (Elt F)),
    binary main_v5 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v5 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v65 main_v72 main_v73 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v66 main_v74 (broadcastInDim S1700000x64 ![0, 1] bcast_S1700000x1_S1700000x64_0_1 : (⟨S1700000x1, .f32⟩ : BufTy).Contents (Elt F) → (⟨S1700000x64, .f32⟩ : BufTy).Contents (Elt F)),
    binary main_v74 main_v73 main_v75 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v76 (broadcastInDim S100000x64 ![] bcast_S_S100000x64 : (⟨S_, .f32⟩ : BufTy).Contents (Elt F) → (⟨S100000x64, .f32⟩ : BufTy).Contents (Elt F)),
    unary main_v6 main_v77 (broadcastInDim S1700000x1 ![0] bcast_S1700000_S1700000x1_0 : (⟨S1700000, .i32⟩ : BufTy).Contents (Elt F) → (⟨S1700000x1, .i32⟩ : BufTy).Contents (Elt F)),
    ternary main_v76 main_v77 main_v75 main_v78 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v81) (TRef.of (T := ⟨S100000x64, .f32⟩) main_call1_v0) (TRef.of (T := ⟨S100000x64, .f32⟩) main_v82) maximumf,
    nullary main_c_16 (constantI S_ 32 0#32),
    unary main_c_16 main_v83 (broadcastInDim S1700000 ![] bcast_S_S1700000 : (⟨S_, .i32⟩ : BufTy).Contents (Elt F) → (⟨S1700000, .i32⟩ : BufTy).Contents (Elt F)),
    binary main_v6 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v85 (broadcastInDim S1700000 ![] bcast_S_S1700000 : (⟨S_, .i32⟩ : BufTy).Contents (Elt F) → (⟨S1700000, .i32⟩ : BufTy).Contents (Elt F)),
    binary main_v6 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v6 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v82 main_v88 main_v89 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    nullary main_c_18 (constantI S_ 32 0#32),
    unary main_c_18 main_v90 (broadcastInDim S1700000 ![] bcast_S_S1700000 : (⟨S_, .i32⟩ : BufTy).Contents (Elt F) → (⟨S1700000, .i32⟩ : BufTy).Contents (Elt F)),
    binary main_v5 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v92 (broadcastInDim S1700000 ![] bcast_S_S1700000 : (⟨S_, .i32⟩ : BufTy).Contents (Elt F) → (⟨S1700000, .i32⟩ : BufTy).Contents (Elt F)),
    binary main_v5 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v5 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v82 main_v95 main_v96 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    binary main_v89 main_v96 main_v97 (subf : (⟨S1700000x64, .f32⟩ : BufTy).Contents (Elt F) → (⟨S1700000x64, .f32⟩ : BufTy).Contents (Elt F) → (⟨S1700000x64, .f32⟩ : BufTy).Contents (Elt F)),
    unary main_arg5 main_v98 (broadcastInDim S1700000x64 ![0, 1] bcast_S1x64_S1700000x64_0_1 : (⟨S1x64, .f32⟩ : BufTy).Contents (Elt F) → (⟨S1700000x64, .f32⟩ : BufTy).Contents (Elt F)),
    binary main_v97 main_v98 main_v99 (Host.divf : (⟨S1700000x64, .f32⟩ : BufTy).Contents (Elt F) → (⟨S1700000x64, .f32⟩ : BufTy).Contents (Elt F) → (⟨S1700000x64, .f32⟩ : BufTy).Contents (Elt F)),
    unary main_v30 main_v100 (broadcastInDim S1700000x1 ![0] bcast_S1700000_S1700000x1_0 : (⟨S1700000, .f32⟩ : BufTy).Contents (Elt F) → (⟨S1700000x1, .f32⟩ : BufTy).Contents (Elt F)),
    unary main_v100 main_v101 (broadcastInDim S1700000x64 ![0, 1] bcast_S1700000x1_S1700000x64_0_1 : (⟨S1700000x1, .f32⟩ : BufTy).Contents (Elt F) → (⟨S1700000x64, .f32⟩ : BufTy).Contents (Elt F)),
    binary main_v101 main_v99 main_v102 (mulf : (⟨S1700000x64, .f32⟩ : BufTy).Contents (Elt F) → (⟨S1700000x64, .f32⟩ : BufTy).Contents (Elt F) → (⟨S1700000x64, .f32⟩ : BufTy).Contents (Elt F)),
    binary main_v102 main_v99 main_v103 (mulf : (⟨S1700000x64, .f32⟩ : BufTy).Contents (Elt F) → (⟨S1700000x64, .f32⟩ : BufTy).Contents (Elt F) → (⟨S1700000x64, .f32⟩ : BufTy).Contents (Elt F)),
    nullary main_cst_20 (constant S_ .f32 0x00000000#32),
    unary main_cst_20 main_v104 (broadcastInDim S100000x64 ![] bcast_S_S100000x64 : (⟨S_, .f32⟩ : BufTy).Contents (Elt F) → (⟨S100000x64, .f32⟩ : BufTy).Contents (Elt F)),
    unary main_v5 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_21 (constant S_ .f32 0x3F800000#32),
    unary main_cst_21 main_v107 (broadcastInDim S1700000 ![] bcast_S_S1700000 : (⟨S_, .f32⟩ : BufTy).Contents (Elt F) → (⟨S1700000, .f32⟩ : BufTy).Contents (Elt F)),
    nullary main_cst_22 (constant S_ .f32 0x00000000#32),
    unary main_cst_22 main_v108 (broadcastInDim S100000 ![] bcast_S_S100000 : (⟨S_, .f32⟩ : BufTy).Contents (Elt F) → (⟨S100000, .f32⟩ : BufTy).Contents (Elt F)),
    unary main_v5 main_v109 (broadcastInDim S1700000x1 ![0] bcast_S1700000_S1700000x1_0 : (⟨S1700000, .i32⟩ : BufTy).Contents (Elt F) → (⟨S1700000x1, .i32⟩ : BufTy).Contents (Elt F)),
    ternary main_v108 main_v109 main_v107 main_v110 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v106 main_v111 (Host.negf : (⟨S100000x64, .f32⟩ : BufTy).Contents (Elt F) → (⟨S100000x64, .f32⟩ : BufTy).Contents (Elt F)),
    unary main_v110 main_v112 (broadcastInDim S100000x1 ![0] bcast_S100000_S100000x1_0 : (⟨S100000, .f32⟩ : BufTy).Contents (Elt F) → (⟨S100000x1, .f32⟩ : BufTy).Contents (Elt F)),
    unary main_v112 main_v113 (broadcastInDim S100000x64 ![0, 1] bcast_S100000x1_S100000x64_0_1 : (⟨S100000x1, .f32⟩ : BufTy).Contents (Elt F) → (⟨S100000x64, .f32⟩ : BufTy).Contents (Elt F)),
    binary main_v111 main_v113 main_v114 (Host.divf : (⟨S100000x64, .f32⟩ : BufTy).Contents (Elt F) → (⟨S100000x64, .f32⟩ : BufTy).Contents (Elt F) → (⟨S100000x64, .f32⟩ : BufTy).Contents (Elt F)),
    unary main_v114 main_v115 (Host.exp : (⟨S100000x64, .f32⟩ : BufTy).Contents (Elt F) → (⟨S100000x64, .f32⟩ : BufTy).Contents (Elt F)),
    binary main_v82 main_v115 main_v116 (mulf : (⟨S100000x64, .f32⟩ : BufTy).Contents (Elt F) → (⟨S100000x64, .f32⟩ : BufTy).Contents (Elt F) → (⟨S100000x64, .f32⟩ : BufTy).Contents (Elt F)),
    binary main_v116 main_arg6 main_v117 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_v30 main_v118 (broadcastInDim S1700000x1 ![0] bcast_S1700000_S1700000x1_0 : (⟨S1700000, .f32⟩ : BufTy).Contents (Elt F) → (⟨S1700000x1, .f32⟩ : BufTy).Contents (Elt F)),
    nullary main_c_23 (constantI S_ 32 0#32),
    unary main_c_23 main_v119 (broadcastInDim S1700000 ![] bcast_S_S1700000 : (⟨S_, .i32⟩ : BufTy).Contents (Elt F) → (⟨S1700000, .i32⟩ : BufTy).Contents (Elt F)),
    binary main_v5 main_v119 main_v120 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v121 (broadcastInDim S1700000 ![] bcast_S_S1700000 : (⟨S_, .i32⟩ : BufTy).Contents (Elt F) → (⟨S1700000, .i32⟩ : BufTy).Contents (Elt F)),
    binary main_v5 main_v121 main_v122 (addi : (⟨S1700000, .i32⟩ : BufTy).Contents (Elt F) → (⟨S1700000, .i32⟩ : BufTy).Contents (Elt F) → (⟨S1700000, .i32⟩ : BufTy).Contents (Elt F)),
    ternary main_v120 main_v122 main_v5 main_v123 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v123 main_v124 (broadcastInDim S1700000x1 ![0] bcast_S1700000_S1700000x1_0 : (⟨S1700000, .i32⟩ : BufTy).Contents (Elt F) → (⟨S1700000x1, .i32⟩ : BufTy).Contents (Elt F)),
    binary main_v117 main_v124 main_v125 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v118 main_v126 (broadcastInDim S1700000x40 ![0, 1] bcast_S1700000x1_S1700000x40_0_1 : (⟨S1700000x1, .f32⟩ : BufTy).Contents (Elt F) → (⟨S1700000x40, .f32⟩ : BufTy).Contents (Elt F)),
    binary main_v126 main_v125 main_v127 (mulf : (⟨S1700000x40, .f32⟩ : BufTy).Contents (Elt F) → (⟨S1700000x40, .f32⟩ : BufTy).Contents (Elt F) → (⟨S1700000x40, .f32⟩ : BufTy).Contents (Elt F)),
    nullary main_cst_25 (constant S_ .f32 0x00000000#32),
    unary main_cst_25 main_v128 (broadcastInDim S100000x40 ![] bcast_S_S100000x40 : (⟨S_, .f32⟩ : BufTy).Contents (Elt F) → (⟨S100000x40, .f32⟩ : BufTy).Contents (Elt F)),
    unary main_v6 main_v129 (broadcastInDim S1700000x1 ![0] bcast_S1700000_S1700000x1_0 : (⟨S1700000, .i32⟩ : BufTy).Contents (Elt F) → (⟨S1700000x1, .i32⟩ : BufTy).Contents (Elt F)),
    ternary main_v128 main_v129 main_v127 main_v130 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg7 main_v131 (broadcastInDim S1x40 ![1] bcast_S40_S1x40_1 : (⟨S40, .f32⟩ : BufTy).Contents (Elt F) → (⟨S1x40, .f32⟩ : BufTy).Contents (Elt F)),
    unary main_v131 main_v132 (broadcastInDim S100000x40 ![0, 1] bcast_S1x40_S100000x40_0_1 : (⟨S1x40, .f32⟩ : BufTy).Contents (Elt F) → (⟨S100000x40, .f32⟩ : BufTy).Contents (Elt F)),
    binary main_v130 main_v132 main_v133 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v133) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v133) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v134) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffer contents after the first seven operations: the two rows of the edge list sliced out and flattened, the
    node numbers, and each row with the node numbers appended (row and col). Every later operation reads row and col as
    they stand, so they are named here once and the rest of @main is read over them. -/
def Rpre (m : (ℓ : Loc nD τ sig) → Buf (Elt F) ℓ) (c : Dev nD) : Valuation τ sig (Elt F) :=
  after ((ops (F := F)).take 7) (launchContents m c)

theorem ops_split (m : (ℓ : Loc nD τ sig) → Buf (Elt F) ℓ) (c : Dev nD) :
    after (ops (F := F)) (launchContents m c) = after ((ops (F := F)).drop 7) (Rpre m c) := after_take_drop 7 _ _

theorem Rpre_v5 (m : (ℓ : Loc nD τ sig) → Buf (Elt F) ℓ) (c : Dev nD) :
    Rpre m c (Proc.devRef .tc main_v5) = Cert.ReferenceIdeal.Read.val_main_v5 (F := F) (m ((c.tc : Thread nD τ).loc main_arg1)) := by
  unfold Rpre
  simp only [ops, List.take_succ_cons, List.take_zero]
  after_results_simp
  rfl

theorem Rpre_v6 (m : (ℓ : Loc nD τ sig) → Buf (Elt F) ℓ) (c : Dev nD) :
    Rpre m c (Proc.devRef .tc main_v6) = Cert.ReferenceIdeal.Read.val_main_v6 (F := F) (m ((c.tc : Thread nD τ).loc main_arg1)) := by
  unfold Rpre
  simp only [ops, List.take_succ_cons, List.take_zero]
  after_results_simp
  rfl

theorem Rpre_arg0 (m : (ℓ : Loc nD τ sig) → Buf (Elt F) ℓ) (c : Dev nD) :
    Rpre m c (Proc.devRef .tc main_arg0) = m ((c.tc : Thread nD τ).loc main_arg0) := by
  unfold Rpre
  simp only [ops, List.take_succ_cons, List.take_zero]
  after_results_simp <;> rfl

theorem Rpre_arg1 (m : (ℓ : Loc nD τ sig) → Buf (Elt F) ℓ) (c : Dev nD) :
    Rpre m c (Proc.devRef .tc main_arg1) = m ((c.tc : Thread nD τ).loc main_arg1) := by
  unfold Rpre
  simp only [ops, List.take_succ_cons, List.take_zero]
  after_results_simp <;> rfl

theorem Rpre_arg2 (m : (ℓ : Loc nD τ sig) → Buf (Elt F) ℓ) (c : Dev nD) :
    Rpre m c (Proc.devRef .tc main_arg2) = m ((c.tc : Thread nD τ).loc main_arg2) := by
  unfold Rpre
  simp only [ops, List.take_succ_cons, List.take_zero]
  after_results_simp <;> rfl

theorem Rpre_arg3 (m : (ℓ : Loc nD τ sig) → Buf (Elt F) ℓ) (c : Dev nD) :
    Rpre m c (Proc.devRef .tc main_arg3) = m ((c.tc : Thread nD τ).loc main_arg3) := by
  unfold Rpre
  simp only [ops, List.take_succ_cons, List.take_zero]
  after_results_simp <;> rfl

theorem Rpre_arg4 (m : (ℓ : Loc nD τ sig) → Buf (Elt F) ℓ) (c : Dev nD) :
    Rpre m c (Proc.devRef .tc main_arg4) = m ((c.tc : Thread nD τ).loc main_arg4) := by
  unfold Rpre
  simp only [ops, List.take_succ_cons, List.take_zero]
  after_results_simp <;> rfl

theorem Rpre_arg5 (m : (ℓ : Loc nD τ sig) → Buf (Elt F) ℓ) (c : Dev nD) :
    Rpre m c (Proc.devRef .tc main_arg5) = m ((c.tc : Thread nD τ).loc main_arg5) := by
  unfold Rpre
  simp only [ops, List.take_succ_cons, List.take_zero]
  after_results_simp <;> rfl

theorem Rpre_arg6 (m : (ℓ : Loc nD τ sig) → Buf (Elt F) ℓ) (c : Dev nD) :
    Rpre m c (Proc.devRef .tc main_arg6) = m ((c.tc : Thread nD τ).loc main_arg6) := by
  unfold Rpre
  simp only [ops, List.take_succ_cons, List.take_zero]
  after_results_simp <;> rfl

theorem Rpre_arg7 (m : (ℓ : Loc nD τ sig) → Buf (Elt F) ℓ) (c : Dev nD) :
    Rpre m c (Proc.devRef .tc main_arg7) = m ((c.tc : Thread nD τ).loc main_arg7) := by
  unfold Rpre
  simp only [ops, List.take_succ_cons, List.take_zero]
  after_results_simp <;> rfl

set_option maxRecDepth 16384 in
set_option maxHeartbeats 40000000 in
/-- The result buffer, read through the fold of the operations, is the last stage of the argument arrays. -/
theorem result_eq (m : (ℓ : Loc nD τ sig) → Buf (Elt F) ℓ) (c : Dev nD) :
    after (ops (F := F)) (launchContents m c) (Proc.devRef .tc main_v134)
      = Cert.ReferenceIdeal.Read.val_main_v134 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split]
  simp only [ops, List.drop_succ_cons, List.drop_zero]
  after_results_simp
  simp only [cast_eq, Rpre_v5 m c, Rpre_v6 m c, Rpre_arg0 m c, Rpre_arg1 m c, Rpre_arg2 m c, Rpre_arg3 m c, Rpre_arg4 m c, Rpre_arg5 m c, Rpre_arg6 m c, Rpre_arg7 m c]
  rfl

set_option maxRecDepth 16384 in
set_option maxHeartbeats 8000000 in
/-- No operation writes argument 0. -/
theorem arg0_kept (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 16384 in
set_option maxHeartbeats 8000000 in
/-- No operation writes argument 1. -/
theorem arg1_kept (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 16384 in
set_option maxHeartbeats 8000000 in
/-- No operation writes argument 2. -/
theorem arg2_kept (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxRecDepth 16384 in
set_option maxHeartbeats 8000000 in
/-- No operation writes argument 3. -/
theorem arg3_kept (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxRecDepth 16384 in
set_option maxHeartbeats 8000000 in
/-- No operation writes argument 4. -/
theorem arg4_kept (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxRecDepth 16384 in
set_option maxHeartbeats 8000000 in
/-- No operation writes argument 5. -/
theorem arg5_kept (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxRecDepth 16384 in
set_option maxHeartbeats 8000000 in
/-- No operation writes argument 6. -/
theorem arg6_kept (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxRecDepth 16384 in
set_option maxHeartbeats 8000000 in
/-- No operation writes argument 7. -/
theorem arg7_kept (m : (ℓ : Loc nD τ sig) → Buf (Elt F) ℓ) (c : Dev nD) :
    after (ops (F := F)) (launchContents m c) (Proc.devRef .tc main_arg7) = m ((c.tc : Thread nD τ).loc main_arg7) := by
  after_results_simp <;> rfl

/-- On every device, from any memory with zero counters: every weakly fair execution of @main terminates with the
    result at the last stage of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v134) = Cert.ReferenceIdeal.Read.val_main_v134 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v134).trans (result_eq m c),
      (h c main_arg0).trans (arg0_kept m c),
      (h c main_arg1).trans (arg1_kept m c),
      (h c main_arg2).trans (arg2_kept m c),
      (h c main_arg3).trans (arg3_kept m c),
      (h c main_arg4).trans (arg4_kept m c),
      (h c main_arg5).trans (arg5_kept m c),
      (h c main_arg6).trans (arg6_kept m c),
      (h c main_arg7).trans (arg7_kept m c)⟩)
    (run_seq scopedRefs_eq scopedSems_eq defs main (fun _ => ops) main_eq (fun _ => ops_sub) m ρ)

end Cert.ReferenceIdeal.HostRun

end
-- ==== Proof.lean ====
/-
  Two layers of a masked graph convolution with a log-softmax at the end, on 100000 nodes and 1600000 edges
  (1700000 with the self-loops), against the same network written in plain array operations.

  Both programs compute, from the edge lists, row and col (the two rows of the edge list with 0 … 99999
  appended), the degree deg of each node as a row, the normalisation norm = deg^(-1/2)[row] · deg^(-1/2)[col], and
  then per layer, with input features h, widths σ, weights W and bias b:
      mask  = exp (-(∑ over edges e with row e = node, of norm e · ((h[col e] - h[row e]) / σ)²) / deg node)
      out   = (∑ over edges e with col e = node, of norm e · ((h · mask) W)[row e]) + b,
  a rectifier between the two layers, and log-softmax over the 40 classes of the second layer's output.
  Every one of these operations is a host operation in both programs, the same operation on the same operands,
  with one exception per layer: the product (h · mask) W. The reference takes the entry-by-entry product and
  then one matrix product; the kernel hands h, mask and W to a pipelined region that, for each of ten blocks
  of 10000 rows, multiplies the two row blocks entry by entry, rounds to the short float format, and
  multiplies into W from a zero accumulator. On extended reals the rounding is the identity and both are
      ((h · mask) W) (r, c) = ∑ k, (h (r, k) · mask (r, k)) · W (k, c),
  the same sum of the same products in the same order: no law of arithmetic beyond that is used, so the
  finiteness of the inputs is never opened. The kernel computes the degree once and the reference once per
  layer; it is the same function of the edge list.

  The frames of the two kernel programs are the generated ones. The kernel's run with its result named is
  KernelRun; the two regions' outputs as whole arrays are MaskedProduct0 and MaskedProduct1; StagesA–C read the
  kernel's buffers at each segment boundary as the reference's stages of the launch arguments, and ends with
  the kernel's result as the reference's last stage. The reference's stages are RefRead and its run, read
  through the fold of its operations as the last stage, is RefRun. The ideal pass rewrote nothing, so the idealization claim is trivial.
-/
import proofs.«104577_j24524263260253_1_alg».proof.Defs
import proofs.«104577_j24524263260253_1_alg».proof.Proof.Gen.Kernel
import proofs.«104577_j24524263260253_1_alg».proof.Proof.Gen.Kernel.Skeleton
import proofs.«104577_j24524263260253_1_alg».proof.Proof.Gen.Kernel.Launch
import proofs.«104577_j24524263260253_1_alg».proof.Proof.Gen.Kernel.Points
import proofs.«104577_j24524263260253_1_alg».proof.Proof.Gen.Kernel.Frame
import proofs.«104577_j24524263260253_1_alg».proof.Proof.Gen.KernelIdeal
import proofs.«104577_j24524263260253_1_alg».proof.Proof.Gen.KernelIdeal.Skeleton
import proofs.«104577_j24524263260253_1_alg».proof.Proof.Gen.KernelIdeal.Launch
import proofs.«104577_j24524263260253_1_alg».proof.Proof.Gen.KernelIdeal.Points
import proofs.«104577_j24524263260253_1_alg».proof.Proof.Gen.KernelIdeal.Frame
import proofs.«104577_j24524263260253_1_alg».proof.Proof.Gen.ReferenceIdeal
import proofs.«104577_j24524263260253_1_alg».proof.Proof.Gen.Pre_finite_inputs
import proofs.«104577_j24524263260253_1_alg».proof.Proof.KernelRun
import proofs.«104577_j24524263260253_1_alg».proof.Proof.StagesC
import proofs.«104577_j24524263260253_1_alg».proof.Proof.RefRun
import proofs.«104577_j24524263260253_1_alg».proof.Proof.RefRead
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no region: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HostRun.run (F := Ideal) m ρ)

/-- The ideal pass rewrote no operation. -/
theorem preserves : Cert.preserves_Kernel_KernelIdeal := trivial

/-- Both programs end with the reference's last stage of the launch arguments: the kernel by the reading of its
    segment boundaries, the reference by its run; the arguments agree by hypothesis. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v134 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Stages.W10_v128 m ρ c), (h c).2⟩)
      (Cert.KernelIdeal.RunValue.run (F := Ideal) m ρ)
  · refine (θ_run Cert.ReferenceIdeal.defs _ _).mono (fun _ h c => ⟨(h c).1.trans ?_, (h c).2⟩) (Cert.ReferenceIdeal.HostRun.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
